-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : FVec F S4096 .f32) (main_arg3 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S8192x4096, .bf16⟩
  | .hbm, ⟨16, _⟩ => ⟨S1x4096, .f32⟩
  | .hbm, ⟨17, _⟩ => ⟨S8192x4096, .f32⟩
  | .hbm, ⟨18, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Steps.lean ====
/-
  What one run of the matmul body leaves behind, case by case, as a function of what it loaded.

  The body keeps a [2048, 1024] accumulator in a scratch buffer that survives from one grid point to the next. Writing
  `step a b acc` for "`acc` plus the product of the x-block `a` [2048, 512] with the transposed weight block `b`
  [1024, 512]" (the body's one arithmetic store) and `seed v` for "the bias row `v` [1, 1024] repeated over the 2048
  rows" (the store under the first-step condition):

    first contraction step (k = 0)      the accumulator ends at   step a b (seed v)     — seeded, read back, stepped;
    a middle step (0 < k < 7)           the accumulator ends at   step a b acc          — `acc` what the step before left;
    the last step (k = 7)               the accumulator ends at   step a b acc, and the output block is a copy of it.

  Each statement holds for any float instance: only which store is read back by which load matters.
-/
import proofs.«121358_j30313879175885_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]

/-- The whole-buffer rectangle starts at the origin. -/
theorem origin : (![0, 0] : Fin 2 → Nat) = fun _ => 0 := funext fun a => by fin_cases a <;> rfl

/-- A middle step: the accumulator, found at `acc`, ends at `acc` plus this step's block product. -/
theorem acc_middle (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .bf16) (x1 : Vec F S1024x512 .bf16) (x2 : Vec F S1x1024 .f32) (acc : Vec F S2048x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero origin]
  simp only [View.readAt_eq_ld, h3.read_unread, h4.read_unread, h7.read_unread,
    View.ld_unit_zero (S := S2048x512) origin, View.ld_unit_zero (S := S1024x512) origin,
    View.ld_unit_zero (S := S2048x1024) origin]

/-- The first step: the accumulator is seeded with the bias row, read back, and ends at the seed plus the block
    product. -/
theorem acc_first (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .bf16) (x1 : Vec F S1024x512 .bf16) (x2 : Vec F S1x1024 .f32) :
    sout0_A_0 c i a3 h3 a4 h4 a5 h5 a6 h6 a7 h7 hc0 hc1 x0 x1 x2 = k0_pay2 x0 x1 (k0_pay1 x2) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, h3.read_unread, h4.read_unread, h5.read_unread,
    View.ld_unit_zero (S := S2048x512) origin, View.ld_unit_zero (S := S1024x512) origin,
    View.ld_unit_zero (S := S1x1024) origin]

/-- The last step: the accumulator, found at `acc`, ends at `acc` plus this step's block product, as at a middle step. -/
theorem acc_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (acc : Vec F S2048x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread,
    View.ld_unit_zero (S := S2048x512) origin, View.ld_unit_zero (S := S1024x512) origin,
    View.ld_unit_zero (S := S2048x1024) origin]

/-- The last step also fills the output block: with the accumulator read back after that store, so with the same value. -/
theorem out_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (acc : Vec F S2048x1024 .f32) :
    out0_C_3 c i a3 h3 a4 h4 a5 h5 a6 h6 a7 h7 hc0 hc1 x0 x1 x2 acc = k0_pay2 x0 x1 acc := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin, View.readCov_unit_zero (S := S2048x1024) _ origin]
  simp only [View.readAt_eq_ld, h3.read_unread, h4.read_unread, h7.read_unread,
    View.ld_unit_zero (S := S2048x512) origin, View.ld_unit_zero (S := S1024x512) origin,
    View.ld_unit_zero (S := S2048x1024) origin]

end Cert.KernelIdeal.Steps

end
-- ==== Proof.StepValue.lean ====
/-
  The body's two stored values read at an index, over the extended reals.

  `seed`: the bias row [1, 1024] repeated over 2048 rows reads, at (p, q), the row's entry q.
  `step`: the accumulator plus the block product reads, at (p, q),
      acc[p, q] + ∑_{l < 512} a[p, l] · b[q, l]
  — the matrix unit contracts the second axis of both operands (the weight block is used transposed) into a zero
  accumulator, which at the ideal instance is that sum exactly; the surrounding shape casts change nothing.
-/
import proofs.«121358_j30313879175885_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Steps

open Cert.KernelIdeal Cert.KernelIdeal.Gen

/-- The seed at (p, q) is the bias row's entry q. -/
theorem seed_apply (v : Vec Ideal S1x1024 .f32) (p : Fin 2048) (q : Fin 1024) :
    k0_pay1 (F := Ideal) v (ix2 p q) = v (ix2 (0 : Fin 1) q) := by
  unfold k0_pay1
  simp only [shapeCast_self]
  exact broadcastTo_1b_ab_apply v broadcasts_S1x1024_S2048x1024 p q

/-- The matrix unit reads its left operand, for output index `j`, in row `j 0`. -/
theorem lhs_row (j : S2048x1024.Idx) (k : dot_S2048x512_S1024x512_S2048x1024_1_1_0_0_n_n.contr.Idx) :
    (dot_S2048x512_S1024x512_S2048x1024_1_1_0_0_n_n.lhsIdx j k 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
/-- The left operand's column is the contraction position. -/
theorem lhs_col (j : S2048x1024.Idx) (k : dot_S2048x512_S1024x512_S2048x1024_1_1_0_0_n_n.contr.Idx) :
    (dot_S2048x512_S1024x512_S2048x1024_1_1_0_0_n_n.lhsIdx j k 1).val = (k ⟨0, by decide⟩).val :=
  dot_S2048x512_S1024x512_S2048x1024_1_1_0_0_n_n.lhsIdx_val_of_single rfl j k
/-- It reads its right operand in row `j 1`: the weight block is used transposed. -/
theorem rhs_row (j : S2048x1024.Idx) (k : dot_S2048x512_S1024x512_S2048x1024_1_1_0_0_n_n.contr.Idx) :
    (dot_S2048x512_S1024x512_S2048x1024_1_1_0_0_n_n.rhsIdx j k 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
/-- The right operand's column is the contraction position too. -/
theorem rhs_col (j : S2048x1024.Idx) (k : dot_S2048x512_S1024x512_S2048x1024_1_1_0_0_n_n.contr.Idx) :
    (dot_S2048x512_S1024x512_S2048x1024_1_1_0_0_n_n.rhsIdx j k 1).val = (k ⟨0, by decide⟩).val :=
  dot_S2048x512_S1024x512_S2048x1024_1_1_0_0_n_n.rhsIdx_val_of_single rfl j k

/-- At output (p, q) and contraction position l the left operand is read at (p, l). -/
theorem lhs_at (p : Fin 2048) (q : Fin 1024) (l : Fin 512) :
    dot_S2048x512_S1024x512_S2048x1024_1_1_0_0_n_n.lhsIdx (ix2 p q) ((contrEquiv1 dot_S2048x512_S1024x512_S2048x1024_1_1_0_0_n_n 512 rfl rfl).symm l) = ix2 p l :=
  funext fun a => Fin.ext (by
    match a with
    | ⟨0, _⟩ => exact lhs_row _ _
    | ⟨1, _⟩ => exact (lhs_col _ _).trans (contrEquiv1_symm_val dot_S2048x512_S1024x512_S2048x1024_1_1_0_0_n_n 512 rfl rfl l))

/-- At output (p, q) and contraction position l the right operand is read at (q, l). -/
theorem rhs_at (p : Fin 2048) (q : Fin 1024) (l : Fin 512) :
    dot_S2048x512_S1024x512_S2048x1024_1_1_0_0_n_n.rhsIdx (ix2 p q) ((contrEquiv1 dot_S2048x512_S1024x512_S2048x1024_1_1_0_0_n_n 512 rfl rfl).symm l) = ix2 q l :=
  funext fun a => Fin.ext (by
    match a with
    | ⟨0, _⟩ => exact rhs_row _ _
    | ⟨1, _⟩ => exact (rhs_col _ _).trans (contrEquiv1_symm_val dot_S2048x512_S1024x512_S2048x1024_1_1_0_0_n_n 512 rfl rfl l))

/-- The step at (p, q): the accumulator's entry plus the 512-term product sum of row p of `a` and row q of `b`. -/
theorem step_apply (a : Vec Ideal S2048x512 .bf16) (b : Vec Ideal S1024x512 .bf16) (acc : Vec Ideal S2048x1024 .f32)
    (p : Fin 2048) (q : Fin 1024) :
    k0_pay2 (F := Ideal) a b acc (ix2 p q) = acc (ix2 p q) + ∑ l : Fin 512, a (ix2 p l) * b (ix2 q l) := by
  unfold k0_pay2
  simp only [shapeCast_self]
  rw [addf_apply]
  refine congrArg (acc (ix2 p q) + ·) ?_
  simp only [matmul]
  rw [Ideal.matmul_constant_zero_apply, ← Equiv.sum_comp (contrEquiv1 dot_S2048x512_S1024x512_S2048x1024_1_1_0_0_n_n 512 rfl rfl).symm]
  refine Finset.sum_congr rfl fun l _ => ?_
  rw [lhs_at, rhs_at]

end Cert.KernelIdeal.Steps

end
-- ==== Proof.Blocks.lean ====
/-
  Which entries of the three staged arrays a grid point's input blocks hold.

  The grid is 4 × 4 × 8, point number `t = 32·i + 8·j + k`: `i = t / 32` picks a band of 2048 rows of the [8192, 4096]
  activations, `j = (t / 8) mod 4` a band of 1024 rows of the [4096, 4096] weight (= 1024 output columns), and
  `k = t mod 8` a stretch of 512 positions of the contraction axis. At point `t`
    the x-block holds      x2[2048·i + p, 512·k + l]      (p < 2048, l < 512),
    the weight block       w[1024·j + q, 512·k + l]       (q < 1024, l < 512),
    the bias block         b[0, 1024·j + q]               (q < 1024),
  and the output block is rows 2048·i …, columns 1024·j … of the [8192, 4096] result. A block's coordinate in its array is
  always (block index) × (block size) + (coordinate inside the block); the block indices are the printed index maps,
  evaluated once over the 128 points.
-/
import proofs.«121358_j30313879175885_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The x-window's block indices at point `t`: (t / 32, t mod 8). -/
theorem index_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
/-- The weight window's: ((t / 8) mod 4, t mod 8). -/
theorem index_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
/-- The bias window's: (0, (t / 8) mod 4). -/
theorem index_b : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
/-- The output window's: (t / 32, (t / 8) mod 4). -/
theorem index_o : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The x-block at point `t`, at (p, l), is the staged activations at (r, i) = (2048·(t/32) + p, 512·(t mod 8) + l). -/
theorem xblk_apply (c : Dev nD) (t : Fin cfg0.N) (p : Fin 2048) (l : Fin 512) (r : Fin 8192) (i : Fin 4096)
    (hr : r.val = 2048 * (t.val / 32) + p.val) (hi : i.val = 512 * (t.val % 8) + l.val) :
    (iblk m c 0 t : Vec F S2048x512 .bf16) (ix2 p l) = (V m c main_v9 : Vec F S8192x4096 .bf16) (ix2 r i) := by
  unfold iblk
  rw [View.read_apply]
  show V m c main_v9 _ = V m c main_v9 _
  congr 1
  funext a
  apply Fin.ext
  match a with
  | ⟨0, _⟩ => show win0_0.index t 0 * 2048 + 1 * p.val = r.val; rw [(index_x t).1, hr]; omega
  | ⟨1, _⟩ => show win0_0.index t 1 * 512 + 1 * l.val = i.val; rw [(index_x t).2, hi]; omega

/-- The weight block at point `t`, at (q, l), is the staged weight at (o, i) = (1024·((t/8) mod 4) + q, 512·(t mod 8) + l). -/
theorem wblk_apply (c : Dev nD) (t : Fin cfg0.N) (q : Fin 1024) (l : Fin 512) (o : Fin 4096) (i : Fin 4096)
    (ho : o.val = 1024 * (t.val / 8 % 4) + q.val) (hi : i.val = 512 * (t.val % 8) + l.val) :
    (iblk m c 1 t : Vec F S1024x512 .bf16) (ix2 q l) = (V m c main_v7 : Vec F S4096x4096 .bf16) (ix2 o i) := by
  unfold iblk
  rw [View.read_apply]
  show V m c main_v7 _ = V m c main_v7 _
  congr 1
  funext a
  apply Fin.ext
  match a with
  | ⟨0, _⟩ => show win0_1.index t 0 * 1024 + 1 * q.val = o.val; rw [(index_w t).1, ho]; omega
  | ⟨1, _⟩ => show win0_1.index t 1 * 512 + 1 * l.val = i.val; rw [(index_w t).2, hi]; omega

/-- The bias block at point `t`, at (0, q), is the staged bias row at (0, o), o = 1024·((t/8) mod 4) + q. -/
theorem bblk_apply (c : Dev nD) (t : Fin cfg0.N) (q : Fin 1024) (o : Fin 4096)
    (ho : o.val = 1024 * (t.val / 8 % 4) + q.val) :
    (iblk m c 2 t : Vec F S1x1024 .f32) (ix2 (0 : Fin 1) q) = (V m c main_v10 : Vec F S1x4096 .f32) (ix2 (0 : Fin 1) o) := by
  unfold iblk
  rw [View.read_apply]
  show V m c main_v10 _ = V m c main_v10 _
  congr 1
  funext a
  apply Fin.ext
  match a with
  | ⟨0, _⟩ => show win0_2.index t 0 * 1 + 1 * 0 = 0; rw [(index_b t).1]
  | ⟨1, _⟩ => show win0_2.index t 1 * 1024 + 1 * q.val = o.val; rw [(index_b t).2, ho]; omega

end Cert.KernelIdeal.Blocks

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.BlockedDot.lean ====
/-
  A matrix product whose contraction axis of length 4096 is cut into 8 consecutive blocks of 512, with a bias
  added first: the running sums, and the law that joins the blocked form to the plain one.

  For a row `r` of `X : [8192, 4096]`, a row `o` of `W : [4096, 4096]` and a bias `b`, write
  `term i = X[r, i] · W[o, i]`. Accumulating block by block, starting from the bias, gives after block `k`
      b + ∑_{s ≤ k} ∑_{l < 512} term (512·s + l),
  and one more block adds `∑_{l < 512} term (512·(k+1) + l)` on the right. After the last block this is
      b + ∑_{s < 8} ∑_{l < 512} term (512·s + l)  =  (∑_{i < 4096} term i) + b.
  Only commutativity and associativity of `+` are used — they hold on the extended reals also at ±∞, where
  distributivity and cancellation would not —, so no finiteness of the entries is needed.
-/
import Mathlib.Data.EReal.Basic
import Idealize.ShloMosaic.Lib.ValueIdx
import proofs.«121358_j30313879175885_2_alg».proof.Proof.LibBlockSum

noncomputable section

namespace Cert.BlockedDot

open Idealize.ShloMosaic Idealize.ShloMosaic.ValueIdx

/-- The product of `X[r, i]` and `W[o, i]` at a contraction position `i` given as a natural number (`0` past the
    end of the axis, where nothing is ever read). -/
def term (X : (⟨2, ![8192, 4096]⟩ : Shape).Idx → EReal) (W : (⟨2, ![4096, 4096]⟩ : Shape).Idx → EReal)
    (r : Fin 8192) (o : Fin 4096) (i : ℕ) : EReal :=
  if h : i < 4096 then X (ix2 r ⟨i, h⟩) * W (ix2 o ⟨i, h⟩) else 0

/-- Inside the axis the term is the product of the two entries. -/
theorem term_of_lt (X : (⟨2, ![8192, 4096]⟩ : Shape).Idx → EReal) (W : (⟨2, ![4096, 4096]⟩ : Shape).Idx → EReal)
    (r : Fin 8192) (o : Fin 4096) (i : ℕ) (h : i < 4096) :
    term X W r o i = X (ix2 r ⟨i, h⟩) * W (ix2 o ⟨i, h⟩) := dif_pos h

/-- Block `s` of the contraction: the 512 terms at positions `512·s + l`. -/
def blockSum (X : (⟨2, ![8192, 4096]⟩ : Shape).Idx → EReal) (W : (⟨2, ![4096, 4096]⟩ : Shape).Idx → EReal)
    (r : Fin 8192) (o : Fin 4096) (s : ℕ) : EReal :=
  ∑ l : Fin 512, term X W r o (512 * s + l.val)

/-- The accumulator after block `k`: the bias plus the first `k + 1` block sums. -/
def partialSum (X : (⟨2, ![8192, 4096]⟩ : Shape).Idx → EReal) (W : (⟨2, ![4096, 4096]⟩ : Shape).Idx → EReal)
    (b : EReal) (r : Fin 8192) (o : Fin 4096) (k : ℕ) : EReal :=
  b + ∑ s ∈ Finset.range (k + 1), blockSum X W r o s

/-- After the first block: the bias plus that block. -/
theorem partialSum_zero (X : (⟨2, ![8192, 4096]⟩ : Shape).Idx → EReal) (W : (⟨2, ![4096, 4096]⟩ : Shape).Idx → EReal)
    (b : EReal) (r : Fin 8192) (o : Fin 4096) :
    partialSum X W b r o 0 = b + blockSum X W r o 0 := by
  unfold partialSum
  rw [Finset.sum_range_one]

/-- One more block: the accumulator plus the next block sum (associativity of `+` only). -/
theorem partialSum_succ (X : (⟨2, ![8192, 4096]⟩ : Shape).Idx → EReal) (W : (⟨2, ![4096, 4096]⟩ : Shape).Idx → EReal)
    (b : EReal) (r : Fin 8192) (o : Fin 4096) (k : ℕ) :
    partialSum X W b r o (k + 1) = partialSum X W b r o k + blockSum X W r o (k + 1) := by
  unfold partialSum
  rw [Finset.sum_range_succ _ (k + 1), add_assoc]

/-- After the eighth block the accumulator is the whole contraction plus the bias: the 8 blocks of 512 positions are
    the 4096 positions, each once, and `+` is commutative. -/
theorem partialSum_last (X : (⟨2, ![8192, 4096]⟩ : Shape).Idx → EReal) (W : (⟨2, ![4096, 4096]⟩ : Shape).Idx → EReal)
    (b : EReal) (r : Fin 8192) (o : Fin 4096) :
    partialSum X W b r o 7 = (∑ i : Fin 4096, X (ix2 r i) * W (ix2 o i)) + b := by
  unfold partialSum blockSum
  rw [Cert.Lib.sum_blocks 8 512 (term X W r o), add_comm]
  refine congrArg (· + b) ?_
  show ∑ i : Fin 4096, term X W r o i.val = _
  exact Finset.sum_congr rfl fun i _ => term_of_lt X W r o i.val i.isLt

/-- The specification: a linear layer with the weight given row by row. At (bb, s, o) the result is the product sum of
    `x[bb, s, ·]` with row `o` of `W`, plus `bias[o]`. Both programs are shown to end at this function of their
    arguments. -/
def linear (x : (⟨3, ![4, 2048, 4096]⟩ : Shape).Idx → EReal) (W : (⟨2, ![4096, 4096]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * W (ix2 (i 2) k)) + bias (ix1 (i 2))

end Cert.BlockedDot

end
-- ==== Proof.Accum.lean ====
/-
  The accumulator across the grid: after grid point `n` it holds, at (p, q), the bias entry of its output column plus
  the first `(n mod 8) + 1` block sums of its output row and column.

  Points come in runs of eight (`n mod 8 = 0 … 7`) that share one output block (row band `n / 32`, column band
  `(n / 8) mod 4`): the first point of a run seeds the accumulator with the bias and adds block 0, each later point adds
  its own block to what the point before left. So by induction on `n` — never by listing the 128 points — the
  accumulator after point `n` is `partialSum … (n mod 8)`: at `n mod 8 = 0` by the seed, otherwise from the point
  before, which lies in the same run, by one more block (associativity of `+`).
-/
import proofs.«121358_j30313879175885_2_alg».proof.Proof.Steps
import proofs.«121358_j30313879175885_2_alg».proof.Proof.StepValue
import proofs.«121358_j30313879175885_2_alg».proof.Proof.Blocks
import proofs.«121358_j30313879175885_2_alg».proof.Proof.BlockedDot

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Steps Cert.KernelIdeal.Blocks Cert.BlockedDot

variable (m : (ℓ : Loc nD τ sig) → Buf (Elt Ideal) ℓ)

/-- The staged activations [8192, 4096], as the region finds them, as a function on the literal index type. -/
abbrev acts (c : Dev nD) : (⟨2, ![8192, 4096]⟩ : Shape).Idx → EReal := V m c main_v9
/-- The staged weight [4096, 4096]. -/
abbrev weight (c : Dev nD) : (⟨2, ![4096, 4096]⟩ : Shape).Idx → EReal := V m c main_v7
/-- The staged bias row [1, 4096]. -/
abbrev biasRow (c : Dev nD) : (⟨2, ![1, 4096]⟩ : Shape).Idx → EReal := V m c main_v10

/-- At point `t` the 512 products of the x-block's row p and the weight block's row q are block `t mod 8` of the
    contraction of activations row r and weight row o, where (r, o) is where (p, q) sits in the output. -/
theorem block_product (c : Dev nD) (t : Fin cfg0.N) (r : Fin 8192) (o : Fin 4096) (p : Fin 2048) (q : Fin 1024)
    (hr : r.val = 2048 * (t.val / 32) + p.val) (ho : o.val = 1024 * (t.val / 8 % 4) + q.val)
    (a : Vec Ideal S2048x512 .bf16) (b : Vec Ideal S1024x512 .bf16) (ha : a = iblk m c 0 t) (hb : b = iblk m c 1 t) :
    ∑ l : Fin 512, a (ix2 p l) * b (ix2 q l) = blockSum (acts m c) (weight m c) r o (t.val % 8) := by
  subst ha hb
  unfold blockSum
  refine Finset.sum_congr rfl fun l _ => ?_
  have hlt : 512 * (t.val % 8) + l.val < 4096 := by have := l.isLt; omega
  rw [term_of_lt _ _ _ _ _ hlt]
  exact congrArg₂ (· * ·) (xblk_apply m c t p l r ⟨_, hlt⟩ hr rfl) (wblk_apply m c t q l o ⟨_, hlt⟩ ho rfl)

/-- One step at point `t` over an accumulator `acc`, at (p, q): `acc`'s entry plus that block. -/
theorem step_at (c : Dev nD) (t : Fin cfg0.N) (acc : Vec Ideal S2048x1024 .f32) (r : Fin 8192) (o : Fin 4096)
    (p : Fin 2048) (q : Fin 1024)
    (hr : r.val = 2048 * (t.val / 32) + p.val) (ho : o.val = 1024 * (t.val / 8 % 4) + q.val) :
    k0_pay2 (F := Ideal) (iblk m c 0 t) (iblk m c 1 t) acc (ix2 p q)
      = acc (ix2 p q) + blockSum (acts m c) (weight m c) r o (t.val % 8) :=
  (step_apply (iblk m c 0 t) (iblk m c 1 t) acc p q).trans
    (congrArg (acc (ix2 p q) + ·) (block_product m c t r o p q hr ho (iblk m c 0 t) (iblk m c 1 t) rfl rfl))

/-- The first point of a run: the accumulator is the bias entry plus block 0. -/
theorem first_at (c : Dev nD) (t : Fin cfg0.N) (h0 : t.val % 8 = 0) (h1 : ¬t.val % 8 = 7) (r : Fin 8192) (o : Fin 4096)
    (p : Fin 2048) (q : Fin 1024)
    (hr : r.val = 2048 * (t.val / 32) + p.val) (ho : o.val = 1024 * (t.val / 8 % 4) + q.val) :
    (outsAt0 m c t.val t.isLt).2 (ix2 p q)
      = partialSum (acts m c) (weight m c) (biasRow m c (ix2 (0 : Fin 1) o)) r o (t.val % 8) := by
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (step_at m c t (k0_pay1 (iblk m c 2 t)) r o p q hr ho).trans ?_
  rw [h0, partialSum_zero]
  exact congrArg (· + blockSum (acts m c) (weight m c) r o 0)
    ((seed_apply (iblk m c 2 t) p q).trans (bblk_apply m c t q o ho))

/-- A later point of a run: what the point before left, plus this point's block. -/
theorem later_at (c : Dev nD) (t : Fin cfg0.N) (h0 : ¬t.val % 8 = 0) (r : Fin 8192) (o : Fin 4096)
    (p : Fin 2048) (q : Fin 1024)
    (hr : r.val = 2048 * (t.val / 32) + p.val) (ho : o.val = 1024 * (t.val / 8 % 4) + q.val) :
    (outsAt0 m c t.val t.isLt).2 (ix2 p q)
      = (outsAt0 m c (t.val - 1) (Nat.lt_of_le_of_lt (Nat.sub_le _ _) t.isLt)).2 (ix2 p q)
        + blockSum (acts m c) (weight m c) r o (t.val % 8) := by
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    exact step_at m c t _ r o p q hr ho
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    exact step_at m c t _ r o p q hr ho

/-- The accumulator after point `n`, at (p, q) — the entry of output row r and column o —: the bias entry of column o
    plus the first `(n mod 8) + 1` block sums. By induction on the point. -/
theorem acc_eq (c : Dev nD) : ∀ (n : ℕ) (h : n < cfg0.N) (r : Fin 8192) (o : Fin 4096) (p : Fin 2048) (q : Fin 1024),
    r.val = 2048 * (n / 32) + p.val → o.val = 1024 * (n / 8 % 4) + q.val →
    (outsAt0 m c n h).2 (ix2 p q)
      = partialSum (acts m c) (weight m c) (biasRow m c (ix2 (0 : Fin 1) o)) r o (n % 8)
  | 0, h, r, o, p, q, hr, ho => first_at m c ⟨0, h⟩ rfl (by show ¬0 % 8 = 7; decide) r o p q hr ho
  | n + 1, h, r, o, p, q, hr, ho => by
    by_cases h0 : (n + 1) % 8 = 0
    · exact first_at m c ⟨n + 1, h⟩ h0 (by dsimp only; omega) r o p q hr ho
    · refine (later_at m c ⟨n + 1, h⟩ h0 r o p q hr ho).trans ?_
      show (outsAt0 m c n _).2 (ix2 p q) + blockSum (acts m c) (weight m c) r o ((n + 1) % 8) = _
      rw [acc_eq c n (Nat.lt_of_succ_lt h) r o p q (by omega) (by omega)]
      have e : (n + 1) % 8 = n % 8 + 1 := by omega
      rw [e, partialSum_succ]

end Cert.KernelIdeal.Accum

end
-- ==== Proof.Staged.lean ====
/-
  The three arrays the kernel stages, and the result after it, in terms of the program's arguments.

  Before the region the host reshapes `x` [4, 2048, 4096] to [8192, 4096] (row `2048·bb + s` is `x[bb, s, ·]`), looks
  the weight up in the codebook (`centroids[indices]`, negative indices wrapped by 256 — the same nine operations the
  reference starts with, kept here as one unopened term), and reshapes the bias [4096] to one row [1, 4096]. The two
  conversions to a narrower float format are the identity on the extended reals. After the region the [8192, 4096]
  result is reshaped back to [4, 2048, 4096].
-/
import proofs.«121358_j30313879175885_2_alg».proof.Proof.Accum
import proofs.«121358_j30313879175885_2_alg».proof.Proof.Gen.ReferenceIdeal.Read
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo

namespace Cert.KernelIdeal.Staged

open Cert.KernelIdeal Cert.KernelIdeal.Gen Cert.KernelIdeal.Accum

section AnyInstance
variable {F : FTy → Type} [FloatOps F]
variable (m : (ℓ : Loc nD τ sig) → Buf (Elt F) ℓ)

/-- The staged activations are `x` reshaped to [8192, 4096] and converted. -/
theorem acts_stage (c : Dev nD) :
    V m c main_v9 = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v9) = _
  after_results <;> rfl

/-- The staged bias is the bias as one row. -/
theorem bias_stage (c : Dev nD) :
    V m c main_v10 = shapeCast S1x4096 (m ((c : Thread nD τ).loc main_arg2)) shapeCasts_S4096_S1x4096 := by
  show StableHlo.after hostOps0 (fun b => m (c, b)) (Proc.devRef .tc main_v10) = _
  after_results <;> rfl

/-- The staged weight is the codebook lookup, converted. -/
theorem weight_stage (c : Dev nD) :
    V m c main_v7 = truncf .bf16
      (Host.gather gather_S256_S4096x4096x1_S4096x4096_n_0_n_n_0_2_1 (m ((c : Thread nD τ).loc main_arg1))
        (broadcastInDim S4096x4096x1 ![0, 1] bcast_S4096x4096_S4096x4096x1_0_1
          (select
            (cmpi .slt (m ((c : Thread nD τ).loc main_arg3)) (broadcastInDim S4096x4096 ![] bcast_S_S4096x4096 (constantI S_ 32 0#32)))
            (addi (m ((c : Thread nD τ).loc main_arg3)) (broadcastInDim S4096x4096 ![] bcast_S_S4096x4096 (constantI S_ 32 256#32)))
            (m ((c : Thread nD τ).loc main_arg3)))))
      bitsLt_bf16_f32 := by
  show StableHlo.after hostOps0 (fun b => m (c, b)) (Proc.devRef .tc main_v7) = _
  after_results <;> rfl

end AnyInstance

variable (m : (ℓ : Loc nD τ sig) → Buf (Elt Ideal) ℓ)

/-- Row `2048·bb + s` of the staged activations is `x[bb, s, ·]`: the same row-major position. -/
theorem acts_apply (c : Dev nD) (bb : Fin 4) (s : Fin 2048) (i : Fin 4096) (r : Fin 8192) (hr : r.val = 2048 * bb.val + s.val) :
    acts m c (ix2 r i) = (m ((c : Thread nD τ).loc main_arg0) : S4x2048x4096.Idx → EReal) (ix3 bb s i) := by
  show (V m c main_v9 : S8192x4096.Idx → EReal) (ix2 r i) = _
  rw [acts_stage m c, truncf_apply]
  refine shapeCast_apply _ shapeCasts_S4x2048x4096_S8192x4096 (ix2 r i) (ix3 bb s i) ?_
  rw [Shape.rowMajor_val_three, Shape.rowMajor_val_two]
  show (bb.val * 2048 + s.val) * 4096 + i.val = r.val * 4096 + i.val
  rw [hr]; omega

/-- The staged bias row at (0, o) is `bias[o]`. -/
theorem bias_apply (c : Dev nD) (o : Fin 4096) :
    biasRow m c (ix2 (0 : Fin 1) o) = (m ((c : Thread nD τ).loc main_arg2) : S4096.Idx → EReal) (ix1 o) := by
  show (V m c main_v10 : S1x4096.Idx → EReal) (ix2 (0 : Fin 1) o) = _
  rw [bias_stage m c]
  exact shapeCast_a_1a_apply _ shapeCasts_S4096_S1x4096 (0 : Fin 1) o

/-- The staged weight is the reference's looked-up weight of the same codebook and indices: the same operations, and
    the conversion changes nothing on the extended reals. -/
theorem weight_eq (c : Dev nD) :
    weight m c = Cert.ReferenceIdeal.Read.val_main_v6 (F := Ideal) (m ((c : Thread nD τ).loc main_arg1)) (m ((c : Thread nD τ).loc main_arg3)) := by
  show (V m c main_v7 : S4096x4096.Idx → EReal) = _
  rw [weight_stage m c]
  rfl

end Cert.KernelIdeal.Staged

end
-- ==== Proof.Result.lean ====
/-
  What the kernel's result holds after the run.

  Output block (i, j) — rows 2048·i …, columns 1024·j … of the [8192, 4096] array — is written back once, at the last
  point of its run of eight (`t mod 8 = 7`), as a copy of the accumulator, which there is the bias plus all eight block
  sums. Every entry (r, o) of the array lies in exactly the block (r / 2048, o / 1024), so the 16 write-backs cover the
  array and it ends holding, at (r, o), `partialSum … 7` of row r and column o. The host then reshapes it to
  [4, 2048, 4096], where (bb, s, o) reads row `2048·bb + s`; the eight blocks of 512 are the whole contraction axis,
  and the result is the linear layer of the arguments.
-/
import proofs.«121358_j30313879175885_2_alg».proof.Proof.Staged
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Steps Cert.KernelIdeal.Blocks Cert.KernelIdeal.Accum
open Cert.KernelIdeal.Staged Cert.BlockedDot

variable (m : (ℓ : Loc nD τ sig) → Buf (Elt Ideal) ℓ) (ρ : Dev nD → PrngReg)

/-- The [8192, 4096] array the region leaves: at (r, o) the bias entry of column o plus the eight block sums of row r
    and column o. -/
def product (c : Dev nD) : Buf (Elt Ideal) ((c : Thread nD τ).loc main_v11) :=
  fun j => partialSum (acts m c) (weight m c) (biasRow m c (ix2 (0 : Fin 1) (j 1))) (j 0) (j 1) 7

/-- At the last point of a run the output block is a copy of the accumulator. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm

/-- A point that writes back writes its block of `product`: the accumulator there holds all eight block sums. -/
theorem flushed_eq (c : Dev nD) (t : Fin cfg0.N) (hf : (cfg0.win 3).flush t = true) :
    (dats m 0 c).flushed 3 t = ((cfg0.win 3).blk t).view.read (Elt Ideal) (product m c) := by
  have h7 : t.val % 8 = 7 := (flush0_3 t).mp hf
  have h0 : ¬t.val % 8 = 0 := by omega
  show (cfg0.win 3).cut (grid0.coords t) ((dats m 0 c).after 3 t) = _
  rw [after0_3, out_eq_acc m c t h0 h7]
  funext j
  obtain ⟨p, q, rfl⟩ : ∃ (p : Fin 2048) (q : Fin 1024), j = ix2 p q := ⟨j 0, j 1, eq_ix2 j⟩
  show (outsAt0 m c t.val t.isLt).2 (ix2 p q) = product m c (((cfg0.win 3).blk t).view.emb (ix2 p q))
  have hr : ((((cfg0.win 3).blk t).view.emb (ix2 p q)) 0).val = 2048 * (t.val / 32) + p.val := by
    show win0_3.index t 0 * 2048 + 1 * p.val = _
    rw [(index_o t).1]; omega
  have ho : ((((cfg0.win 3).blk t).view.emb (ix2 p q)) 1).val = 1024 * (t.val / 8 % 4) + q.val := by
    show win0_3.index t 1 * 1024 + 1 * q.val = _
    rw [(index_o t).2]; omega
  have key := acc_eq m c t.val t.isLt _ _ p q hr ho
  rw [h7] at key
  exact key

/-- An entry of the array is in point `t`'s block iff each coordinate is in the block's range. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v11).slice (win0_3.rect t)).set ↔ _
  rw [View.set_slice_whole, Rect.mem_set_unit]
  exact Iff.rfl

/-- Every entry (r, o) is in the block written back at point `32·(r / 2048) + 8·(o / 1024) + 7`. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have hlt : 32 * ((i 0).val / 2048) + 8 * ((i 1).val / 1024) + 7 < cfg0.N := by rw [hN]; omega
  refine ⟨⟨32 * ((i 0).val / 2048) + 8 * ((i 1).val / 1024) + 7, hlt⟩, (flush0_3 _).mpr (by dsimp only; omega), ?_⟩
  rw [mem_blk]
  intro a
  match a with
  | ⟨0, _⟩ =>
    show win0_3.index ⟨_, hlt⟩ 0 * 2048 ≤ (i 0).val ∧ (i 0).val < win0_3.index ⟨_, hlt⟩ 0 * 2048 + 2048
    rw [(index_o ⟨_, hlt⟩).1]; dsimp only; omega
  | ⟨1, _⟩ =>
    show win0_3.index ⟨_, hlt⟩ 1 * 1024 ≤ (i 1).val ∧ (i 1).val < win0_3.index ⟨_, hlt⟩ 1 * 1024 + 1024
    rw [(index_o ⟨_, hlt⟩).2]; dsimp only; omega

/-- So the region's result array ends holding `product`. -/
theorem final (c : Dev nD) : (dats m 0 c).arrAt 3 cfg0.N = product m c :=
  (dats m 0 c).arrAt_eq_of_cover 3 (product m c) (flushed_eq m c) (cover)

/-- The program's result: `product` reshaped to [4, 2048, 4096]. -/
def result (c : Dev nD) : Buf (Elt Ideal) ((c : Thread nD τ).loc main_v12) :=
  shapeCast S4x2048x4096 (product m c) shapeCasts_S8192x4096_S4x2048x4096

/-- The host operation after the region leaves it in the result buffer. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v11) = product m c from
    (Pipeline.withArrays_arr spec0 launch0.win.arr_inj c _ _ 3).trans (final m c)]
  rfl

/-- The run, read: every weakly fair execution terminates with the result buffer at `result` and the arguments
    unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result is the linear layer of the arguments: at (bb, s, o) it reads row `2048·bb + s` and column o of
    `product`, whose eight blocks are the whole contraction, and the staged arrays are the arguments re-laid. -/
theorem result_eq (c : Dev nD) :
    result m c = linear (m ((c : Thread nD τ).loc main_arg0)) (weight m c) (m ((c : Thread nD τ).loc main_arg2)) := by
  funext i
  obtain ⟨bb, s, o, rfl⟩ : ∃ (bb : Fin 4) (s : Fin 2048) (o : Fin 4096), i = ix3 bb s o := ⟨i 0, i 1, i 2, eq_ix3 i⟩
  have hlt : 2048 * bb.val + s.val < 8192 := by have := bb.isLt; have := s.isLt; omega
  have e : result m c (ix3 bb s o) = product m c (ix2 ⟨2048 * bb.val + s.val, hlt⟩ o) := by
    refine shapeCast_apply _ shapeCasts_S8192x4096_S4x2048x4096 (ix3 bb s o) (ix2 ⟨2048 * bb.val + s.val, hlt⟩ o) ?_
    rw [Shape.rowMajor_val_three, Shape.rowMajor_val_two]
    show (2048 * bb.val + s.val) * 4096 + o.val = (bb.val * 2048 + s.val) * 4096 + o.val
    omega
  rw [e]
  show partialSum (acts m c) (weight m c) (biasRow m c (ix2 (0 : Fin 1) o)) ⟨2048 * bb.val + s.val, hlt⟩ o 7 = _
  rw [partialSum_last, bias_apply]
  unfold linear
  refine congrArg (· + _) (Finset.sum_congr rfl fun k _ => ?_)
  rw [acts_apply m c bb s k ⟨2048 * bb.val + s.val, hlt⟩ rfl]

end Cert.KernelIdeal.Result

end
-- ==== Proof.RefValue.lean ====
/-
  The reference is the linear layer: its `dot_general` contracts the last axis of `x` with the second axis of the
  looked-up weight (so row `o` of the weight meets `x[bb, s, ·]`), and the bias, broadcast over the two leading axes,
  is added after. Read one operation at a time, its result at (bb, s, o) is
      (∑_{k < 4096} x[bb, s, k] · W[o, k]) + bias[o].
  The weight lookup itself (a gather) is left unopened: the kernel performs the same lookup.
-/
import proofs.«121358_j30313879175885_2_alg».proof.Proof.Gen.ReferenceIdeal.Read
import proofs.«121358_j30313879175885_2_alg».proof.Proof.BlockedDot

noncomputable section

open Idealize.ShloMosaic Idealize.ShloMosaic.ValueIdx

namespace Cert.ReferenceIdeal.RefValue

open Cert.ReferenceIdeal Cert.ReferenceIdeal.Read Cert.BlockedDot

/-- The left operand of the contraction at output (bb, s, o) and position k is `x[bb, s, k]`. -/
theorem left_index (i : S4x2048x4096.Idx) (k : Fin 4096) : lidx_main_v7 i k = ix3 (i 0) (i 1) k :=
  funext fun a => by match a with | ⟨0, _⟩ => rfl | ⟨1, _⟩ => rfl | ⟨2, _⟩ => rfl

/-- The right operand there is `W[o, k]`. -/
theorem right_index (i : S4x2048x4096.Idx) (k : Fin 4096) : ridx_main_v7 i k = ix2 (i 2) k :=
  funext fun a => by match a with | ⟨0, _⟩ => rfl | ⟨1, _⟩ => rfl

/-- The bias, broadcast over the two leading axes, is read at o. -/
theorem bias_index (i : S4x2048x4096.Idx) : idx_main_v8 (idx_main_v9 i) = ix1 (i 2) :=
  funext fun a => by match a with | ⟨0, _⟩ => rfl

/-- The reference's result is the linear layer of its arguments, with the looked-up weight. -/
theorem reference_eq (x0 : (⟨S4x2048x4096, .f32⟩ : BufTy).Contents (Elt Ideal)) (x1 : (⟨S256, .f32⟩ : BufTy).Contents (Elt Ideal))
    (x2 : (⟨S4096, .f32⟩ : BufTy).Contents (Elt Ideal)) (x3 : (⟨S4096x4096, .i32⟩ : BufTy).Contents (Elt Ideal)) :
    val_main_v10 (F := Ideal) x0 x1 x2 x3 = linear x0 (val_main_v6 (F := Ideal) x1 x3) x2 := by
  funext i
  rw [val_main_v10_apply, val_main_v7_apply, val_main_v9_apply, val_main_v8_apply]
  simp only [left_index, right_index, bias_index]
  rfl

end Cert.ReferenceIdeal.RefValue

end
-- ==== Proof.lean ====
/-
  A weight-shared linear layer, `out[bb, s, o] = ∑ₖ x[bb, s, k] · W[o, k] + bias[o]` with `W = centroids[indices]`,
  computed two ways, is one function of the arguments on the extended reals.

  The kernel reshapes `x` to [8192, 4096], tiles the product into 2048 × 1024 output blocks, and for each block walks the
  contraction axis in eight stretches of 512, keeping the running sum in an accumulator that it seeds with the bias; the
  block is written out after the eighth stretch and the result reshaped back. The reference contracts the whole axis at
  once and adds the bias afterwards. The two differ only in the order and grouping of one sum:
      ((…((bias + D₀) + D₁) + …) + D₇)  =  (∑ₖ x·W) + bias,   Dₛ the 512 terms of stretch s,
  which needs only commutativity and associativity of `+`, so it holds at infinite entries too and the finiteness
  precondition is never opened. The changes of float format in the kernel are the identity on the extended reals, and
  the weight lookup is the same operations in both programs.

  Modules: BlockedDot (the sums and the law), Steps and StepValue (what one run of the body leaves, and its value at an
  index), Blocks (which entries a grid point's blocks hold), Accum (the accumulator after every point, by induction),
  Staged (the staged arrays in terms of the arguments), Result (the result array and the run), RefValue (the reference).
-/
import proofs.«121358_j30313879175885_2_alg».proof.Defs
import proofs.«121358_j30313879175885_2_alg».proof.Proof.Gen.Kernel
import proofs.«121358_j30313879175885_2_alg».proof.Proof.Gen.Kernel.Skeleton
import proofs.«121358_j30313879175885_2_alg».proof.Proof.Gen.Kernel.Launch
import proofs.«121358_j30313879175885_2_alg».proof.Proof.Gen.Kernel.Points
import proofs.«121358_j30313879175885_2_alg».proof.Proof.Gen.Kernel.Frame
import proofs.«121358_j30313879175885_2_alg».proof.Proof.Gen.KernelIdeal
import proofs.«121358_j30313879175885_2_alg».proof.Proof.Gen.KernelIdeal.Skeleton
import proofs.«121358_j30313879175885_2_alg».proof.Proof.Gen.KernelIdeal.Launch
import proofs.«121358_j30313879175885_2_alg».proof.Proof.Gen.KernelIdeal.Points
import proofs.«121358_j30313879175885_2_alg».proof.Proof.Gen.KernelIdeal.Frame
import proofs.«121358_j30313879175885_2_alg».proof.Proof.Gen.ReferenceIdeal
import proofs.«121358_j30313879175885_2_alg».proof.Proof.Gen.ReferenceIdeal.Run
import proofs.«121358_j30313879175885_2_alg».proof.Proof.Gen.ReferenceIdeal.Read
import proofs.«121358_j30313879175885_2_alg».proof.Proof.Gen.Pre_finite_inputs
import proofs.«121358_j30313879175885_2_alg».proof.Proof.Result
import proofs.«121358_j30313879175885_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- Both programs end at the linear layer of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  show _ = Cert.KernelIdeal.Result.result m c
  rw [(h c).1, Cert.ReferenceIdeal.Read.val_main_v10_eq, Cert.ReferenceIdeal.RefValue.reference_eq,
    (hagree c).1, (hagree c).2.1, (hagree c).2.2.1, (hagree c).2.2.2,
    Cert.KernelIdeal.Result.result_eq m c, Cert.KernelIdeal.Staged.weight_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
